-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S128x4096 : Shape := ⟨2, ![128, 4096]⟩

abbrev nBuf : Space → Nat
  | .hbm => 41
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .i32⟩
  | .hbm, ⟨3, _⟩ => ⟨S4096x1, .i32⟩
  | .hbm, ⟨4, _⟩ => ⟨S1x4096, .i32⟩
  | .hbm, ⟨5, _⟩ => ⟨S4096x4096, .i32⟩
  | .hbm, ⟨6, _⟩ => ⟨S4096x4096, .i32⟩
  | .hbm, ⟨7, _⟩ => ⟨S4096x4096, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S_, .i32⟩
  | .hbm, ⟨23, _⟩ => ⟨S_, .i1⟩
  | .hbm, ⟨24, _⟩ => ⟨S4096x4096, .i1⟩
  | .hbm, ⟨25, _⟩ => ⟨S4096x4096, .i1⟩
  | .hbm, ⟨26, _⟩ => ⟨S4096x4096, .i1⟩
  | .hbm, ⟨27, _⟩ => ⟨S4096x4096, .i32⟩
  | .hbm, ⟨28, _⟩ => ⟨S4096x4096, .i32⟩
  | .hbm, ⟨29, _⟩ => ⟨S4096x4096, .i32⟩
  | .hbm, ⟨30, _⟩ => ⟨S_, .i32⟩
  | .hbm, ⟨31, _⟩ => ⟨S4096x4096, .i32⟩
  | .hbm, ⟨32, _⟩ => ⟨S4096x4096, .i1⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S4096x4096, .i32⟩
  | .hbm, ⟨37, _⟩ => ⟨S4096x4096x1, .i32⟩
  | .hbm, ⟨38, _⟩ => ⟨S4096x4096, .f32⟩
  | .hbm, ⟨39, _⟩ => ⟨S4096x4096, .bf16⟩
  | .hbm, ⟨40, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S128x4096, .f32⟩
  | .local _ .vmem, ⟨4, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_c : Ref sig .tc := ⟨.hbm, 8, rfl⟩
abbrev main_call0_call0_v0 : Ref sig .tc := ⟨.hbm, 9, rfl⟩
abbrev main_call0_call0_c : Ref sig .tc := ⟨.hbm, 10, rfl⟩
abbrev main_call0_call0_v1 : Ref sig .tc := ⟨.hbm, 11, rfl⟩
abbrev main_call0_call0_c_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_c_1 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_c_2 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_c_3 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_call0_v12 : Ref sig .tc := ⟨.hbm, 26, rfl⟩
abbrev main_call0_call0_v13 : Ref sig .tc := ⟨.hbm, 27, rfl⟩
abbrev main_call0_call0_v14 : Ref sig .tc := ⟨.hbm, 28, rfl⟩
abbrev main_call0_v6 : Ref sig .tc := ⟨.hbm, 29, rfl⟩
abbrev main_call0_c_0 : Ref sig .tc := ⟨.hbm, 30, rfl⟩
abbrev main_call0_v7 : Ref sig .tc := ⟨.hbm, 31, rfl⟩
abbrev main_call0_v8 : Ref sig .tc := ⟨.hbm, 32, rfl⟩
abbrev main_call0_c_1 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v0 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  gather_S4096_S4096x4096x1_S4096x4096_n_0_n_n_0_2_1_wf : GatherDims.WF S4096 S4096x4096x1 S4096x4096 [] [0] [] [0] [] 2 ![1]
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)

variable [Facts₀]

def gather_S4096_S4096x4096x1_S4096x4096_n_0_n_n_0_2_1 : GatherDims S4096 S4096x4096x1 S4096x4096 where
  offsetDims := []
  collapsedSliceDims := [0]
  operandBatchingDims := []
  startIndicesBatchingDims := []
  startIndexMap := [0]
  indexVectorDim := 2
  sliceSizes := ![1]
  wf := gather_S4096_S4096x4096x1_S4096x4096_n_0_n_n_0_2_1_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v14) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4096x4096x1 : Shape := ⟨3, ![4096, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .i32⟩
  | .hbm, ⟨3, _⟩ => ⟨S1x4096, .i32⟩
  | .hbm, ⟨4, _⟩ => ⟨S4096x1, .i32⟩
  | .hbm, ⟨5, _⟩ => ⟨S4096x4096, .i32⟩
  | .hbm, ⟨6, _⟩ => ⟨S4096x4096, .i32⟩
  | .hbm, ⟨7, _⟩ => ⟨S4096x4096, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S_, .i32⟩
  | .hbm, ⟨23, _⟩ => ⟨S_, .i1⟩
  | .hbm, ⟨24, _⟩ => ⟨S4096x4096, .i1⟩
  | .hbm, ⟨25, _⟩ => ⟨S4096x4096, .i1⟩
  | .hbm, ⟨26, _⟩ => ⟨S4096x4096, .i1⟩
  | .hbm, ⟨27, _⟩ => ⟨S4096x4096, .i32⟩
  | .hbm, ⟨28, _⟩ => ⟨S4096x4096, .i32⟩
  | .hbm, ⟨29, _⟩ => ⟨S4096x4096, .i32⟩
  | .hbm, ⟨30, _⟩ => ⟨S_, .i32⟩
  | .hbm, ⟨31, _⟩ => ⟨S4096x4096, .i32⟩
  | .hbm, ⟨32, _⟩ => ⟨S4096x4096, .i1⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S4096x4096, .i32⟩
  | .hbm, ⟨37, _⟩ => ⟨S4096x4096x1, .i32⟩
  | .hbm, ⟨38, _⟩ => ⟨S4096x4096, .f32⟩
  | .hbm, ⟨39, _⟩ => ⟨S4096x4096, .f32⟩
  | .hbm, ⟨40, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_c_1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  transposes_S4096x4096_S4096x4096_1_0 : S4096x4096.Transposes [1, 0] S4096x4096
  gather_S4096_S4096x4096x1_S4096x4096_n_0_n_n_0_2_1_wf : GatherDims.WF S4096 S4096x4096x1 S4096x4096 [] [0] [] [0] [] 2 ![1]
  dot_S8192x4096_S4096x4096_S8192x4096_1_0_0_1_n_n_wf : DotDims.WF S8192x4096 S4096x4096 S8192x4096 [1] [0] [0] [1] [] []

variable [Facts₀]

def gather_S4096_S4096x4096x1_S4096x4096_n_0_n_n_0_2_1 : GatherDims S4096 S4096x4096x1 S4096x4096 where
  offsetDims := []
  collapsedSliceDims := [0]
  operandBatchingDims := []
  startIndicesBatchingDims := []
  startIndexMap := [0]
  indexVectorDim := 2
  sliceSizes := ![1]
  wf := gather_S4096_S4096x4096x1_S4096x4096_n_0_n_n_0_2_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Circulant.lean ====
/-
  The circulant table both programs build on the host before they multiply, and the product itself.

  From the weight vector `w` of 4096 entries both programs gather a 4096 × 4096 table: an integer array of DIFFERENCES
  of the row and column numbers is reduced modulo 4096 the way jnp's `%` does it (the truncated remainder, 4096 added
  back where the signs differ), negative indices are wrapped once more by 4096, and `w` is gathered at the result.
  One program takes the difference row − column; the other takes column − row and transposes the table afterwards.
  Every step of the index arithmetic acts entry by entry, so entry (k, c) of either table is `w` at one and the same
  function `wrapWord` of one and the same word, row number k minus column number c: the two tables are equal
  (`transpose_table`), and the arithmetic itself is never evaluated.

  The product is `matProduct x M`: entry (b, c) is the sum over k of x(b, k) · M(k, c), on the extended reals.
-/
import Idealize.ShloMosaic.PureOps.Ideal
import Idealize.ShloMosaic.Lib.ValueIdx
import Idealize.ShloMosaic.Lib.IdealHost
import Idealize.ShloMosaic.Lib.Pipeline.Value

noncomputable section

open scoped BigOperators

namespace Cert.Circulant

open Idealize.ShloMosaic Idealize.ShloMosaic.ValueIdx

/-! ## Shapes and their evident relations -/

abbrev Sc : Shape := ⟨0, ![]⟩
abbrev SN : Shape := ⟨1, ![4096]⟩
abbrev SNx1 : Shape := ⟨2, ![4096, 1]⟩
abbrev S1xN : Shape := ⟨2, ![1, 4096]⟩
abbrev SNN : Shape := ⟨2, ![4096, 4096]⟩
abbrev SNN1 : Shape := ⟨3, ![4096, 4096, 1]⟩
abbrev SBN : Shape := ⟨2, ![8192, 4096]⟩

theorem bcCol : SN.BroadcastsInDim SNx1 (![0] : Fin 1 → Fin SNx1.rank) := by decide
theorem bcRow : SN.BroadcastsInDim S1xN (![1] : Fin 1 → Fin S1xN.rank) := by decide
theorem bcColSq : SNx1.BroadcastsInDim SNN (![0, 1] : Fin 2 → Fin SNN.rank) := by decide
theorem bcRowSq : S1xN.BroadcastsInDim SNN (![0, 1] : Fin 2 → Fin SNN.rank) := by decide
theorem bcScSq : Sc.BroadcastsInDim SNN (![] : Fin 0 → Fin SNN.rank) := by decide
theorem bcSq1 : SNN.BroadcastsInDim SNN1 (![0, 1] : Fin 2 → Fin SNN1.rank) := by decide
theorem takeWf : GatherDims.WF SN SNN1 SNN [] [0] [] [0] [] 2 ![1] := by decide
theorem swapSq : SNN.Transposes [1, 0] SNN := by decide

/-! ## The index arithmetic, one entry at a time -/

/-- One difference word reduced into [0, 4096): the truncated remainder by 4096 (the divisor guarded against zero as
    jnp guards it), 4096 added back when the remainder is not zero and its sign differs from the divisor's, and a
    result still negative wrapped by 4096 once more. Stated, never evaluated. -/
def wrapWord (z : BitVec 32) : BitVec 32 :=
  let q : BitVec 32 := Scalar.select (IntOp.cmpi .eq 4096#32 0#32) 1#32 4096#32
  let r : BitVec 32 := IntOp.remsi .host z q
  let fix : BitVec 1 := IntOp.andi (IntOp.cmpi .ne (IntOp.cmpi .slt r 0#32) (IntOp.cmpi .slt q 0#32)) (IntOp.cmpi .ne r 0#32)
  let m : BitVec 32 := Scalar.select fix (IntOp.addi r q) r
  Scalar.select (IntOp.cmpi .slt m 0#32) (IntOp.addi m 4096#32) m

/-- The same arithmetic on a whole 4096 × 4096 array of difference words, as the host operations spell it. -/
def wrap (d : IVec SNN 32) : IVec SNN 32 :=
  let n0 : IVec Sc 32 := constantI Sc 32 4096#32
  let q : IVec Sc 32 := select (cmpi .eq n0 (constantI Sc 32 0#32)) (constantI Sc 32 1#32) n0
  let r : IVec SNN 32 := Host.remsi d (broadcastInDim SNN ![] bcScSq q)
  let nz : IVec SNN 1 := cmpi .ne r (broadcastInDim SNN ![] bcScSq (constantI Sc 32 0#32))
  let neg : IVec SNN 1 := cmpi .slt r (broadcastInDim SNN ![] bcScSq (constantI Sc 32 0#32))
  let qneg : IVec Sc 1 := cmpi .slt q (constantI Sc 32 0#32)
  let fix : IVec SNN 1 := andi (cmpi .ne neg (broadcastInDim SNN ![] bcScSq qneg)) nz
  let m : IVec SNN 32 := select fix (addi r (broadcastInDim SNN ![] bcScSq q)) r
  select (cmpi .slt m (broadcastInDim SNN ![] bcScSq (constantI Sc 32 0#32)))
    (addi m (broadcastInDim SNN ![] bcScSq (constantI Sc 32 4096#32))) m

/-- Every step acts entry by entry: the array's entry is the word function of the difference's entry. -/
theorem wrap_apply (d : IVec SNN 32) (i : SNN.Idx) : wrap d i = wrapWord (d i) := rfl

/-- The position a gather reads for an index word: the word read signed, clamped into [0, 4095]. -/
def clampPos (z : BitVec 32) : Fin 4096 := ⟨min z.toInt.toNat (4096 - 1), by omega⟩

/-- The table gathered from `w` at the wrapped differences. -/
def table {α : Type} (w : SN.Idx → α) (d : IVec SNN 32) : SNN.Idx → α :=
  Host.gather (takeDims 4096 4096 4096 takeWf) w (broadcastInDim SNN1 ![0, 1] bcSq1 (wrap d))

/-- Entry (a, b) of the table is `w` at the clamped, wrapped difference word of entry (a, b). -/
theorem table_apply {α : Type} (w : SN.Idx → α) (d : IVec SNN 32) (a b : Fin 4096) :
    table w d (ix2 a b) = w (ix1 (clampPos (wrapWord (d (ix2 a b))))) := by
  unfold table
  rw [gather_take_apply (by norm_num) takeWf w _ (ix2 a b)]
  refine congrArg w (congrArg ix1 (Fin.ext ?_))
  show min (broadcastInDim SNN1 ![0, 1] bcSq1 (wrap d) (takeIdx (ix2 a b))).toInt.toNat (4096 - 1) = _
  rw [broadcastInDim_apply ![0, 1] bcSq1 (wrap d) (takeIdx (ix2 a b)) (ix2 a b)
    (fun ax => by match ax with | ⟨0, _⟩ => rfl | ⟨1, _⟩ => rfl), wrap_apply]
  rfl

/-! ## The two difference arrays -/

/-- Row number minus column number, as 32-bit words. -/
def rowMinusCol : IVec SNN 32 :=
  subi (broadcastInDim SNN ![0, 1] bcColSq (broadcastInDim SNx1 ![0] bcCol (iotaInDim SN 32 0)))
    (broadcastInDim SNN ![0, 1] bcRowSq (broadcastInDim S1xN ![1] bcRow (iotaInDim SN 32 0)))

/-- Column number minus row number. -/
def colMinusRow : IVec SNN 32 :=
  subi (broadcastInDim SNN ![0, 1] bcRowSq (broadcastInDim S1xN ![1] bcRow (iotaInDim SN 32 0)))
    (broadcastInDim SNN ![0, 1] bcColSq (broadcastInDim SNx1 ![0] bcCol (iotaInDim SN 32 0)))

/-- The column of row numbers spread over the square reads the row number. -/
theorem rows_apply (r c : Fin 4096) :
    broadcastInDim SNN ![0, 1] bcColSq (broadcastInDim SNx1 ![0] bcCol (iotaInDim SN 32 0)) (ix2 r c) = BitVec.ofNat 32 r.val := by
  rw [broadcastInDim_apply ![0, 1] bcColSq _ (ix2 r c) (ix2 r (0 : Fin 1))
    (fun ax => by match ax with | ⟨0, _⟩ => rfl | ⟨1, _⟩ => rfl),
    broadcastInDim_apply ![0] bcCol _ (ix2 r (0 : Fin 1)) (ix1 r) (fun ax => by match ax with | ⟨0, _⟩ => rfl)]
  rfl

/-- The row of column numbers spread over the square reads the column number. -/
theorem cols_apply (r c : Fin 4096) :
    broadcastInDim SNN ![0, 1] bcRowSq (broadcastInDim S1xN ![1] bcRow (iotaInDim SN 32 0)) (ix2 r c) = BitVec.ofNat 32 c.val := by
  rw [broadcastInDim_apply ![0, 1] bcRowSq _ (ix2 r c) (ix2 (0 : Fin 1) c)
    (fun ax => by match ax with | ⟨0, _⟩ => rfl | ⟨1, _⟩ => rfl),
    broadcastInDim_apply ![1] bcRow _ (ix2 (0 : Fin 1) c) (ix1 c) (fun ax => by match ax with | ⟨0, _⟩ => rfl)]
  rfl

theorem rowMinusCol_apply (r c : Fin 4096) :
    rowMinusCol (ix2 r c) = IntOp.subi (BitVec.ofNat 32 r.val) (BitVec.ofNat 32 c.val) := by
  show IntOp.subi _ _ = _
  rw [rows_apply, cols_apply]

theorem colMinusRow_apply (r c : Fin 4096) :
    colMinusRow (ix2 r c) = IntOp.subi (BitVec.ofNat 32 c.val) (BitVec.ofNat 32 r.val) := by
  show IntOp.subi _ _ = _
  rw [rows_apply, cols_apply]

/-! ## The two tables are one -/

/-- The table M with M(k, c) = w[(k − c) mod 4096]: gathered at row minus column. -/
def circ {α : Type} (w : SN.Idx → α) : SNN.Idx → α := table w rowMinusCol

/-- The table gathered at column minus row, transposed, is that table: entry (k, c) of the transpose is entry (c, k)
    of the table at column minus row, whose difference word is k − c, the word of entry (k, c) at row minus column. -/
theorem transpose_table {α : Type} (w : SN.Idx → α) (k c : Fin 4096) :
    transpose SNN [1, 0] (table w colMinusRow) swapSq (ix2 k c) = circ w (ix2 k c) := by
  rw [transpose_apply [1, 0] (table w colMinusRow) swapSq (ix2 k c) (ix2 c k)
    (fun ax => by match ax with | ⟨0, _⟩ => rfl | ⟨1, _⟩ => rfl)]
  unfold circ
  rw [table_apply, table_apply, colMinusRow_apply, rowMinusCol_apply]

/-! ## The product -/

/-- x · M for x of 8192 rows: entry (b, c) is the sum over k of x(b, k) · M(k, c), on the extended reals. -/
def matProduct (x : SBN.Idx → EReal) (M : SNN.Idx → EReal) : SBN.Idx → EReal :=
  fun j => ∑ k : Fin 4096, x (ix2 (⟨(j 0).val, idx2_lt0 j⟩ : Fin 8192) k) * M (ix2 k (⟨(j 1).val, idx2_lt1 j⟩ : Fin 4096))

theorem matProduct_apply (x : SBN.Idx → EReal) (M : SNN.Idx → EReal) (b : Fin 8192) (c : Fin 4096) :
    matProduct x M (ix2 b c) = ∑ k : Fin 4096, x (ix2 b k) * M (ix2 k c) := rfl

end Cert.Circulant

end
-- ==== Proof.KernelTable.lean ====
/-
  The table the kernel's program hands to the matrix product.

  Before the product runs, the host operations build from the weight vector w the 4096 × 4096 array that the kernel
  keeps resident: the row and column numbers, their difference row − column, its remainder by 4096 with jnp's sign
  correction, one more wrap of negative indices, the gather of w at the result, and a change of format to bf16,
  which on the extended reals is the identity. Read back from the run of those operations, that array is the circulant
  table at row minus column, M(k, c) = w[(k − c) mod 4096].
-/
import proofs.«158076_j51685636440286_2_alg».proof.Proof.Gen.KernelIdeal.Value
import proofs.«158076_j51685636440286_2_alg».proof.Proof.Circulant
import Idealize.ShloMosaic.Lib.StableHlo.Run

noncomputable section

open Idealize.ShloMosaic Idealize.ShloMosaic.TcCoe Idealize.SL.Sem Idealize.ShloMosaic.ValueIdx

namespace Cert.KernelIdeal.Hand

open Cert.KernelIdeal Cert.KernelIdeal.Gen

variable (m : (ℓ : Loc nD τ sig) → Buf (Elt Ideal) ℓ)

-- thirty-eight operations folded over the launch memory, several results read more than once
set_option maxHeartbeats 2000000 in
/-- When the matrix product starts, its second operand holds the table gathered from the weight vector as launched,
    at the wrapped differences row − column, in the narrower format. -/
theorem V_table (c : Dev nD) :
    (V m c main_call0_v14 : S4096x4096.Idx → EReal)
      = truncf (F := Ideal) .bf16 (Cert.Circulant.table (α := EReal) (m ((c : Thread nD τ).loc main_arg1)) Cert.Circulant.rowMinusCol : FVec Ideal S4096x4096 .f32) bitsLt_bf16_f32 := by
  dsimp only [Gen.V, Gen.hostOps0]
  after_results_simp
  rfl

end Cert.KernelIdeal.Hand

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.KernelSide.lean ====
/-
  The kernel's result array is the product x · M of the argument x with the circulant table M.

  The grid has 64 points; point t multiplies rows 128 t … 128 t + 127 of x (converted to bf16, the identity on the
  extended reals) by the whole table into a zero accumulator and writes the 128 × 4096 block back to the same rows of
  the result. Entry (p, q) of that block is the sum over k of x(128 t + p, k) · M(k, q) (`pay_apply`, with the
  blocks read off the arrays by `xblk_apply` and `mblk_apply`), which is entry (128 t + p, q) of x · M
  (`flushed_eq`); the 64 row blocks cover the 8192 rows (`cover`), so the array ends at x · M (`final`, `run`).
-/
import proofs.«158076_j51685636440286_2_alg».proof.Proof.KernelTable
import proofs.«158076_j51685636440286_2_alg».proof.Proof.Circulant
import proofs.«158076_j51685636440286_2_alg».proof.Proof.LibPlainProduct
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

/-- The two zero offsets of a whole-block access, as the constant zero function. -/
theorem hz : (![0, 0] : Fin 2 → Nat) = fun _ => 0 := funext fun a => by fin_cases a <;> rfl

/-- The body's product at entry (p, q) of its block: the sum over k of the x block's (p, k) times the table's (k, q). -/
theorem pay_apply (x0 : FVec Ideal S128x4096 .f32) (x1 : FVec Ideal S4096x4096 .bf16) (p : Fin 128) (q : Fin 4096) :
    k0_pay1 x0 x1 (ix2 p q) = ∑ k : Fin 4096, x0 (ix2 p k) * x1 (ix2 k q) := by
  unfold k0_pay1
  refine (Cert.LibPlainProduct.matmul_zero_plain_apply dot_S128x4096_S4096x4096_S128x4096_1_0_0_1_n_n_wf none
    (truncf (F := Ideal) .bf16 x0 bitsLt_bf16_f32) (shapeCast S4096x4096 x1 shapeCasts_S4096x4096_S4096x4096) p q).trans ?_
  rw [shapeCast_self]
  rfl

/-- The printed index maps over the 64 grid points: x and the result move by row block, the table stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t's block of x is rows 128 t … 128 t + 127 of the argument. -/
theorem xblk_apply (c : Dev nD) (t : Fin cfg0.N) (p : Fin 128) (k : Fin 4096) (b : Fin 8192) (hb : b.val = 128 * t.val + p.val) :
    (iblk m c 0 t : FVec Ideal S128x4096 .f32) (ix2 p k)
      = (m ((c : Thread nD τ).loc main_arg0) : S8192x4096.Idx → EReal) (ix2 b k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 128 + 1 * p.val = b.val; rw [e0, hb]; omega
  | ⟨1, _⟩ => show win0_0.index t (1 : Fin 2) * 4096 + 1 * k.val = k.val; rw [e1]; omega

/-- Every point's block of the table is the whole table, the circulant one. -/
theorem mblk_apply (c : Dev nD) (t : Fin cfg0.N) (k q : Fin 4096) :
    (iblk m c 1 t : FVec Ideal S4096x4096 .bf16) (ix2 k q)
      = Cert.Circulant.circ (α := EReal) (m ((c : Thread nD τ).loc main_arg1)) (ix2 k q) := by
  obtain ⟨-, -, e2, e3, -⟩ := idx_facts t
  have hemb : ((cfg0.win 1).blk t).view.emb (ix2 k q) = (ix2 k q : S4096x4096.Idx) := by
    funext a; apply Fin.ext
    match a with
    | ⟨0, _⟩ => show win0_1.index t (0 : Fin 2) * 4096 + 1 * k.val = k.val; rw [e2]; omega
    | ⟨1, _⟩ => show win0_1.index t (1 : Fin 2) * 4096 + 1 * q.val = q.val; rw [e3]; omega
  show (V m c main_call0_v14 : S4096x4096.Idx → EReal) (((cfg0.win 1).blk t).view.emb (ix2 k q)) = _
  rw [hemb, V_table]
  rfl

/-- What point t writes back is block t of the product x · M, M the circulant table. -/
theorem flushed_eq (c : Dev nD) (t : Fin cfg0.N) :
    (dats m 0 c).flushed 2 t = ((cfg0.win 2).blk t).view.read (Elt Ideal)
      (Cert.Circulant.matProduct (m ((c : Thread nD τ).loc main_arg0)) (Cert.Circulant.circ (α := EReal) (m ((c : Thread nD τ).loc main_arg1)))) := by
  rw [Value.flushed2]
  unfold Gen.out0_2
  rw [View.canon_unit_zero hz]
  simp only [View.ld_unit_zero (S := S128x4096) hz, View.ld_unit_zero (S := S4096x4096) hz]
  obtain ⟨-, -, -, -, e4, e5⟩ := idx_facts t
  have hN : cfg0.N = 64 := N_0
  funext y
  obtain ⟨p, q, rfl⟩ : ∃ (p : Fin 128) (q : Fin 4096), y = ix2 p q := ⟨y 0, y 1, eq_ix2 y⟩
  have hb : 128 * t.val + p.val < 8192 := by have := t.isLt; have := p.isLt; omega
  have hemb : ((cfg0.win 2).blk t).view.emb (ix2 p q) = (ix2 (⟨128 * t.val + p.val, hb⟩ : Fin 8192) q : S8192x4096.Idx) := by
    funext a; apply Fin.ext
    match a with
    | ⟨0, _⟩ => show win0_2.index t (0 : Fin 2) * 128 + 1 * p.val = 128 * t.val + p.val; rw [e4]; omega
    | ⟨1, _⟩ => show win0_2.index t (1 : Fin 2) * 4096 + 1 * q.val = q.val; rw [e5]; omega
  show k0_pay1 (iblk m c 0 t) (iblk m c 1 t) (ix2 p q)
    = Cert.Circulant.matProduct _ _ (((cfg0.win 2).blk t).view.emb (ix2 p q))
  rw [hemb, Cert.Circulant.matProduct_apply]
  refine (pay_apply (iblk m c 0 t) (iblk m c 1 t) p q).trans ?_
  refine Finset.sum_congr rfl fun k _ => ?_
  rw [xblk_apply m c t p k ⟨128 * t.val + p.val, hb⟩ rfl, mblk_apply m c t k q]

/-- An index of the result is in point t's block iff its row is in rows 128 t … 128 t + 127. -/
theorem mem_blk (t : Fin cfg0.N) (i : S8192x4096.Idx) :
    i ∈ ((cfg0.win 2).blk t).view.set ↔ ∀ a : Fin 2, win0_2.index t a * S128x4096.size a ≤ (i a).val ∧ (i a).val < win0_2.index t a * S128x4096.size a + S128x4096.size a := by
  show i ∈ ((View.whole main_v0).slice (win0_2.rect t)).set ↔ _
  rw [View.set_slice_whole, Rect.mem_set_unit]
  exact Iff.rfl

/-- Row r of the result lies in the block of point r / 128: the 64 blocks cover the array. -/
theorem cover (i : S8192x4096.Idx) : ∃ t : Fin cfg0.N, (cfg0.win 2).flush t = true ∧ i ∈ ((cfg0.win 2).blk t).view.set := by
  have hN : cfg0.N = 64 := N_0
  have hi0 : (i 0).val < 8192 := (i 0).isLt
  have hi1 : (i 1).val < 4096 := (i 1).isLt
  let t : Fin cfg0.N := ⟨(i 0).val / 128, by rw [hN]; omega⟩
  obtain ⟨-, -, -, -, e4, e5⟩ := idx_facts t
  have ht : t.val = (i 0).val / 128 := rfl
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; rw [e4, ht]; omega
  | ⟨1, _⟩ => show win0_2.index t (1 : Fin 2) * 4096 ≤ (i 1).val ∧ (i 1).val < win0_2.index t (1 : Fin 2) * 4096 + 4096; rw [e5]; omega

/-- The result array after the run is the product x · M. -/
theorem final (c : Dev nD) : (dats m 0 c).arrAt 2 cfg0.N
    = Cert.Circulant.matProduct (m ((c : Thread nD τ).loc main_arg0)) (Cert.Circulant.circ (α := EReal) (m ((c : Thread nD τ).loc main_arg1))) :=
  (dats m 0 c).arrAt_eq_of_cover 2 _ (fun t _ => flushed_eq m c t) cover

/-- The run, read: every weakly fair execution ends with the result array at x · M and the arguments unchanged. -/
theorem run : θ_run (defs (F := Ideal)) (onTc (τ := τ) (main (F := Ideal))) ⟨m, fun _ => 0, ρ⟩ fun r => ∀ c : Dev nD,
      r.2.mem ((c : Thread nD τ).loc main_v0)
          = Cert.Circulant.matProduct (m ((c : Thread nD τ).loc main_arg0)) (Cert.Circulant.circ (α := EReal) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Hand

end
-- ==== Proof.RefRun.lean ====
/- The reference program's @main as the LIST of its 39 host operations, and its run read back.

   @main is seven plain operations (the iota, its two broadcasts to a row and to a column, their two
   broadcasts to the square, the difference col - row, the scalar 4096), then the call
   `remainder(col - row, 4096)`, then eleven more ending in the dot_general. The call is unfolded at its
   site over the call record's buffers: @remainder's twenty operations with, between the scalar `1` and
   the first broadcast, the one select of the nested call `_where(d == 0, 1, d)`, written into that nested
   call's own buffer. Both calls' arguments are the caller's buffers themselves, and the value @remainder
   returns is the buffer @main reads afterwards as its `%6`, so unfolding the two definitions turns @main
   into one straight line of 39 steps, which is what `main_eq` says. The run then follows from the
   library's theorem for straight-line host programs: every weakly fair execution terminates with every
   buffer at the fold of the 39 operations over the launch contents. -/
import proofs.«158076_j51685636440286_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 39 operations in program order, the two calls unfolded: operations 8 to 28 are @remainder's over
    the record `main_call0` (its arguments the caller's `col - row` and `4096`), operation 12 among them the
    nested @_where's select into `main_call0.call0.v0`; operation 28 writes the buffer @main names `%6`. -/
abbrev ops : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    unary main_v0 main_v2 (broadcastInDim S4096x1 ![0] bcast_S4096_S4096x1_0 : (⟨S4096, .i32⟩ : BufTy).Contents (Elt F) → (⟨S4096x1, .i32⟩ : BufTy).Contents (Elt F)),
    unary main_v1 main_v3 (broadcastInDim S4096x4096 ![0, 1] bcast_S1x4096_S4096x4096_0_1 : (⟨S1x4096, .i32⟩ : BufTy).Contents (Elt F) → (⟨S4096x4096, .i32⟩ : BufTy).Contents (Elt F)),
    unary main_v2 main_v4 (broadcastInDim S4096x4096 ![0, 1] bcast_S4096x1_S4096x4096_0_1 : (⟨S4096x1, .i32⟩ : BufTy).Contents (Elt F) → (⟨S4096x4096, .i32⟩ : BufTy).Contents (Elt F)),
    binary main_v3 main_v4 main_v5 (subi : (⟨S4096x4096, .i32⟩ : BufTy).Contents (Elt F) → (⟨S4096x4096, .i32⟩ : BufTy).Contents (Elt F) → (⟨S4096x4096, .i32⟩ : BufTy).Contents (Elt F)),
    nullary main_c (constantI S_ 32 4096#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4096x4096 ![] bcast_S_S4096x4096),
    TRef.binary (.of main_v5) main_call0.v3 main_call0.v4 Host.remsi,
    TRef.nullary main_call0.c_1 (constantI S_ 32 0#32),
    TRef.unary main_call0.c_1 main_call0.v5 (broadcastInDim S4096x4096 ![] bcast_S_S4096x4096),
    TRef.binary main_call0.v4 main_call0.v5 main_call0.v6 (cmpi .ne),
    TRef.nullary main_call0.c_2 (constantI S_ 32 0#32),
    TRef.unary main_call0.c_2 main_call0.v7 (broadcastInDim S4096x4096 ![] bcast_S_S4096x4096),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096x4096 ![] bcast_S_S4096x4096),
    TRef.binary main_call0.v8 main_call0.v10 main_call0.v11 (cmpi .ne),
    TRef.binary main_call0.v11 main_call0.v6 main_call0.v12 andi,
    TRef.unary main_call0.call0.v0 main_call0.v13 (broadcastInDim S4096x4096 ![] bcast_S_S4096x4096),
    TRef.binary main_call0.v4 main_call0.v13 main_call0.v14 addi,
    TRef.ternary main_call0.v12 main_call0.v14 main_call0.v4 main_call0.v15 select,
    nullary main_c_0 (constantI S_ 32 0#32),
    unary main_c_0 main_v7 (broadcastInDim S4096x4096 ![] bcast_S_S4096x4096 : (⟨S_, .i32⟩ : BufTy).Contents (Elt F) → (⟨S4096x4096, .i32⟩ : BufTy).Contents (Elt F)),
    binary main_v6 main_v7 main_v8 (cmpi .slt : (⟨S4096x4096, .i32⟩ : BufTy).Contents (Elt F) → (⟨S4096x4096, .i32⟩ : BufTy).Contents (Elt F) → (⟨S4096x4096, .i1⟩ : BufTy).Contents (Elt F)),
    nullary main_c_1 (constantI S_ 32 4096#32),
    unary main_c_1 main_v9 (broadcastInDim S4096x4096 ![] bcast_S_S4096x4096 : (⟨S_, .i32⟩ : BufTy).Contents (Elt F) → (⟨S4096x4096, .i32⟩ : BufTy).Contents (Elt F)),
    binary main_v6 main_v9 main_v10 (addi : (⟨S4096x4096, .i32⟩ : BufTy).Contents (Elt F) → (⟨S4096x4096, .i32⟩ : BufTy).Contents (Elt F) → (⟨S4096x4096, .i32⟩ : BufTy).Contents (Elt F)),
    ternary main_v8 main_v10 main_v6 main_v11 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v11 main_v12 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_arg1 main_v12 main_v13 ((fun x i => Host.gather gather_S4096_S4096x4096x1_S4096x4096_n_0_n_n_0_2_1 x i) : (⟨S4096, .f32⟩ : BufTy).Contents (Elt F) → (⟨S4096x4096x1, .i32⟩ : BufTy).Contents (Elt F) → (⟨S4096x4096, .f32⟩ : BufTy).Contents (Elt F)),
    unary main_v13 main_v14 ((transpose S4096x4096 [1, 0] · transposes_S4096x4096_S4096x4096_1_0) : (⟨S4096x4096, .f32⟩ : BufTy).Contents (Elt F) → (⟨S4096x4096, .f32⟩ : BufTy).Contents (Elt F)),
    binary main_arg0 main_v14 main_v15 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)) ]

-- 39 binds re-associated: the rewrite under the chain recurses once per statement
set_option maxRecDepth 1024 in
/-- @main is that straight line: with the two functions' definitions unfolded at their calls, and sequencing
    re-associated (`bind_assoc`, `pure_bind`), both sides are the same chain of 39 host steps. -/
theorem main_eq (c : Dev nD) : main (F := F) c = seq ops := by
  simp only [main, fn_remainder.body, fn_where.body, seq, bind_assoc, pure_bind]

/-- The program declares no scoped buffer on the TensorCore. -/
theorem scopedRefs_eq : (Finset.univ.filter fun b : Ref sig .tc => b.isScoped) = ∅ := by decide
/-- The program declares no scoped semaphore on the TensorCore. -/
theorem scopedSems_eq : (Finset.univ.filter fun sm : SemLoc sig => sm.isScoped .tc) = ∅ := by decide

/-- Every operation reads and writes TensorCore buffers only: one entry per operation, by its arity. -/
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub ..⟩

/-- On every device, for any float values, from any memory with zero counters: every weakly fair execution of
    @main on the TensorCores terminates, and every final state has each TensorCore buffer at the operations'
    fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/- The reference program's result array at the ideal values, as a specification function.

   The run of @main leaves every buffer at the fold of its 39 operations over the launch contents. Read at the
   result buffer that fold is one composed term: the dot_general of the first argument x with the transpose of the
   table gathered from the second argument w at the wrapped differences column - row (`result_eq`: each operation's
   result read at its own buffer is its function's value, and the remainder and the wrap, operation by operation,
   are the array arithmetic `Circulant.wrap`; the equation is by computation). At the ideal values the product read at entry (b, c) is
   the sum over k of x(b, k) times the transposed table's entry (k, c), and that entry is the circulant table's,
   w at (k - c) mod 4096 (`Circulant.transpose_table`). So the result is `matProduct x (circ w)`; the two arguments
   are written by no operation and keep their launch contents. -/
import proofs.«158076_j51685636440286_2_alg».proof.Proof.RefRun
import proofs.«158076_j51685636440286_2_alg».proof.Proof.Circulant
import proofs.«158076_j51685636440286_2_alg».proof.Proof.LibPlainProduct

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

set_option maxRecDepth 8192 in
set_option maxHeartbeats 2000000 in
/-- The fold at the result buffer is the composed term. Each operation's result at the buffer it writes is its
    function's value at its operands' contents, and at any other buffer what was there before (which buffer is which
    is decided on the literal references); what remains is the program's own chain of array operations, and the
    remainder-and-wrap arithmetic on the array of differences in it is `Circulant.wrap`'s term step for step, so the
    two sides agree by computation. -/
theorem result_eq (V : Valuation τ sig (Elt Ideal)) :
    after RefRun.ops V (main_v15 : DevRef τ sig)
      = Host.dotGeneral (F := Ideal) (φ₁ := .f32) (φ₂ := .f32) dot_S8192x4096_S4096x4096_S8192x4096_1_0_0_1_n_n none
          (V (main_arg0 : DevRef τ sig) : FVec Ideal S8192x4096 .f32)
          (transpose S4096x4096 [1, 0]
            (Cert.Circulant.table (α := Ideal .f32) (V (main_arg1 : DevRef τ sig) : FVec Ideal S4096 .f32) Cert.Circulant.colMinusRow)
            transposes_S4096x4096_S4096x4096_1_0) := by
  after_results_simp
  rfl

set_option maxRecDepth 8192 in
/-- No operation writes the first argument. -/
theorem arg0_eq (V : Valuation τ sig (Elt Ideal)) :
    after RefRun.ops V (main_arg0 : DevRef τ sig) = V (main_arg0 : DevRef τ sig) := by
  simp only [after_cons, after_nil]
  rfl

set_option maxRecDepth 8192 in
/-- No operation writes the second argument. -/
theorem arg1_eq (V : Valuation τ sig (Elt Ideal)) :
    after RefRun.ops V (main_arg1 : DevRef τ sig) = V (main_arg1 : DevRef τ sig) := by
  simp only [after_cons, after_nil]
  rfl

/-- The composed term is the specification: entry (b, c) of the product is the sum over k of x(b, k) times the
    transposed table's entry (k, c), which is the circulant table's. -/
theorem product_eq (x : Cert.Circulant.SBN.Idx → EReal) (w : Cert.Circulant.SN.Idx → EReal) :
    Host.dotGeneral (F := Ideal) (φ₁ := .f32) (φ₂ := .f32) dot_S8192x4096_S4096x4096_S8192x4096_1_0_0_1_n_n none x
        (transpose S4096x4096 [1, 0] (Cert.Circulant.table w Cert.Circulant.colMinusRow) transposes_S4096x4096_S4096x4096_1_0)
      = Cert.Circulant.matProduct x (Cert.Circulant.circ w) := by
  funext j
  obtain ⟨b, c, rfl⟩ : ∃ (b : Fin 8192) (c : Fin 4096), j = ix2 b c := ⟨j 0, j 1, eq_ix2 j⟩
  refine (Cert.LibPlainProduct.dotGeneral_plain_apply (M := 8192) (K := 4096) (N := 4096)
    dot_S8192x4096_S4096x4096_S8192x4096_1_0_0_1_n_n.wf none x _ b c).trans ?_
  rw [Cert.Circulant.matProduct_apply]
  exact Finset.sum_congr rfl fun k _ => by rw [Cert.Circulant.transpose_table]

/-- On every device, from any memory with zero counters: every weakly fair execution of @main terminates with the
    result at `matProduct x (circ w)` of the arguments' launch contents x and w, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15)
          = Cert.Circulant.matProduct (m ((c.tc : Thread nD τ).loc main_arg0)) (Cert.Circulant.circ (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v15).trans ((result_eq _).trans (product_eq _ _)),
      (h c main_arg0).trans (arg0_eq _), (h c main_arg1).trans (arg1_eq _)⟩)
    (RefRun.run_all m ρ)

end Cert.ReferenceIdeal.RefValue

end
-- ==== Proof.lean ====
/-
  The kernel computes out = x · M with M(k, c) = w[(k − c) mod 4096]; the reference builds the circulant matrix
  C(r, c) = w[(c − r) mod 4096] and computes x · Cᵀ. Both tables are gathered from w on the host at differences of
  the row and column numbers reduced modulo 4096 by the same word arithmetic; entry (k, c) of M and entry (k, c) of
  Cᵀ read w at the same function of the same word k − c, so M = Cᵀ without the arithmetic ever being evaluated
  (Proof/Circulant.lean). On the extended reals the kernel's blocked bf16 matrix product into a zero accumulator and
  the reference's dot_general are the same sum over k of x(b, k) · M(k, c), in the same order: no law of arithmetic
  is used, and the finiteness of the inputs is never needed.

  The kernel's side: the table as its program's host operations leave it (Proof/KernelTable.lean), each grid point's
  128-row block of the product, and the 64 blocks covering the result (Proof/KernelSide.lean). The reference's side:
  its run as a straight line of 39 host operations (Proof/RefRun.lean) and the result read at an entry
  (Proof/RefValue.lean). The frames of the two kernel programs are the generated ones; the reference's frame is its
  run with the result dropped; the idealization rewrote nothing, so what it has to preserve is trivial.
-/
import proofs.«158076_j51685636440286_2_alg».proof.Defs
import proofs.«158076_j51685636440286_2_alg».proof.Proof.Gen.Kernel
import proofs.«158076_j51685636440286_2_alg».proof.Proof.Gen.Kernel.Frame
import proofs.«158076_j51685636440286_2_alg».proof.Proof.Gen.KernelIdeal
import proofs.«158076_j51685636440286_2_alg».proof.Proof.Gen.KernelIdeal.Frame
import proofs.«158076_j51685636440286_2_alg».proof.Proof.Gen.ReferenceIdeal
import proofs.«158076_j51685636440286_2_alg».proof.Proof.Gen.Pre_finite_inputs
import proofs.«158076_j51685636440286_2_alg».proof.Proof.KernelSide
import proofs.«158076_j51685636440286_2_alg».proof.Proof.RefValue

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on x and w both programs end with the result array at x · M, M the circulant table
    M(k, c) = w[(k − c) mod 4096]. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
